-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 43
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S128x128_S128x128_S128x128_1_0_0_1_n_n_wf : DotDims.WF S128x128 S128x128 S128x128 [1] [0] [0] [1] [] []
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S128x128, .f32⟩
  | .hbm, ⟨8, _⟩ => ⟨S100000x128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KBlock.lean ====
/-
  The array the kernel's one region writes, as ONE function of the arrays the region finds: entry (n, q) is the
  product of row n of the features with column q of the combined weight, times the entry of row n of the one-column
  scale array. A grid point handles a block of 5000 consecutive rows: it multiplies its block of rows with the whole
  weight (the matrix unit's product from a zero accumulator; the narrowing of both operands to 16 bits is the identity
  at the ideal values) and scales row p of the product by row p of its block of the scale column. The twenty blocks
  tile the 100000 rows, so the final array is that function everywhere.
-/
import proofs.«173724_j69320772158259_2_alg».proof.Proof.Gen.KernelIdeal.Frame
import proofs.«173724_j69320772158259_2_alg».proof.Proof.LibDot
import proofs.«173724_j69320772158259_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat Cfg Window)
open scoped BigOperators

/-- Rows times the weight, each row scaled by its entry of the scale column. -/
def scaledRows (X : S100000x128.Idx → EReal) (W : S128x128.Idx → EReal) (S : S100000x1.Idx → EReal) :
    S100000x128.Idx → EReal :=
  fun i => (∑ k : Fin 128, X (ix2 (i 0) k) * W (ix2 k (i 1))) * S (ix2 (i 0) (0 : Fin 1))

theorem scaledRows_apply (X : S100000x128.Idx → EReal) (W : S128x128.Idx → EReal) (S : S100000x1.Idx → EReal)
    (r : Fin 100000) (q : Fin 128) :
    scaledRows X W S (ix2 r q) = (∑ k : Fin 128, X (ix2 r k) * W (ix2 k q)) * S (ix2 r (0 : Fin 1)) := rfl

/-- One grid point's stored block at (p, q): row p of its feature block times column q of the weight, scaled by
    row p of its block of the scale column. -/
theorem payload_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, shapeCast_self, shapeCast_self]
  congr 1
  · exact LibDot.matmul_zero_apply (m := 5000) (k := 128) (n := 128) dot_S5000x128_S128x128_S5000x128_1_0_0_1_n_n.wf none
      (truncf .bf16 x0 bitsLt_bf16_f32) (truncf .bf16 x1 bitsLt_bf16_f32) p q
  · exact broadcastTo_a1_ab_apply x2 broadcasts_S5000x1_S5000x128 p q

theorem zero_off : (![0, 0] : Fin 2 → Nat) = fun _ => 0 := funext fun a => by fin_cases a <;> rfl

/-- How the four windows' block positions move over the twenty grid points: features, scale column and output move
    together down the rows; the weight stays. -/
theorem block_positions : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) ≤ 19
    ∧ win0_3.index t (1 : Fin 2) = 0 :=
  (by decide +kernel : ∀ t : Fin grid0.N, _)

/-- Every one of the twenty row blocks is some point's. -/
theorem block_onto : ∀ (b : Fin 20), ∃ t : Fin cfg0.N, win0_3.index t = ![b.val, 0] :=
  (by decide +kernel : ∀ (b : Fin 20), ∃ t : Fin grid0.N, win0_3.index t = ![b.val, 0])

variable (m : (ℓ : Loc nD τ sig) → Buf (Elt Ideal) ℓ)

/-- One stored entry against the whole-array function: if the block's entry y sits at array index i (row b·5000 + y₀,
    the same column), and the three blocks read the arrays X, W, S at the matching places, then the stored value at y
    is the whole-array function at i. Stated over plain arrays and blocks. -/
theorem point_eq (X : S100000x128.Idx → EReal) (W : S128x128.Idx → EReal) (S : S100000x1.Idx → EReal)
    (x0 : Vec Ideal S5000x128 .f32) (x1 : Vec Ideal S128x128 .f32) (x2 : Vec Ideal S5000x1 .f32)
    (y : S5000x128.Idx) (i : S100000x128.Idx)
    (h0 : ∀ k : Fin 128, x0 (ix2 (y 0) k) = X (ix2 (i 0) k))
    (h1 : ∀ k : Fin 128, x1 (ix2 k (y 1)) = W (ix2 k (i 1)))
    (h2 : x2 (ix2 (y 0) (0 : Fin 1)) = S (ix2 (i 0) (0 : Fin 1))) :
    k0_pay1 (F := Ideal) x0 x1 x2 y = scaledRows X W S i := by
  obtain ⟨p, q, rfl⟩ : ∃ (p : Fin 5000) (q : Fin 128), y = ix2 p q := ⟨y 0, y 1, eq_ix2 y⟩
  rw [payload_apply]
  unfold scaledRows
  rw [show x2 (ix2 p (0 : Fin 1)) = S (ix2 (i 0) (0 : Fin 1)) from h2]
  refine congrArg (fun z : EReal => z * _) ?_
  exact Finset.sum_congr rfl fun k _ => by
    rw [show x0 (ix2 p k) = X (ix2 (i 0) k) from h0 k, show x1 (ix2 k q) = W (ix2 k (i 1)) from h1 k]

/-- What point t writes back, for ANY three arrays X, W, S that the point's three input blocks read through their
    windows: block t of the whole-array function of X, W, S. -/
theorem flushed_of_reads (c : Dev nD) (t : Fin cfg0.N)
    (X : S100000x128.Idx → EReal) (W : S128x128.Idx → EReal) (S : S100000x1.Idx → EReal)
    (hX : iblk m c 0 t = ((cfg0.win 0).blk t).view.read (Elt Ideal) X)
    (hW : iblk m c 1 t = ((cfg0.win 1).blk t).view.read (Elt Ideal) W)
    (hS : iblk m c 2 t = ((cfg0.win 2).blk t).view.read (Elt Ideal) S) :
    (dats m 0 c).flushed 3 t = ((cfg0.win 3).blk t).view.read (Elt Ideal) (scaledRows X W S) := by
  show (cfg0.win 3).cut (grid0.coords t) ((dats m 0 c).after 3 t) = _
  rw [after0_3]
  unfold out0_3
  rw [View.canon_unit_zero zero_off]
  simp only [View.ld_unit_zero (S := S5000x128) zero_off, View.ld_unit_zero (S := S128x128) zero_off,
    View.ld_unit_zero (S := S5000x1) zero_off]
  obtain ⟨e0, e1, e2, e3, e4, e5, e6, e7⟩ := block_positions t
  funext j
  have hj0 : (j 0).val < 5000 := (j 0).isLt
  have hj1 : (j 1).val < 128 := (j 1).isLt
  refine point_eq X W S (iblk m c 0 t) (iblk m c 1 t) (iblk m c 2 t)
    ((cfg0.win 3).xinj (grid0.coords t) j) (((cfg0.win 3).blk t).view.emb j) (fun k => ?_) (fun k => ?_) ?_
  · have hk := k.isLt
    refine (congrFun hX (ix2 (⟨(j 0).val, hj0⟩ : Fin 5000) k)).trans (congrArg X ?_)
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · have hk := k.isLt
    refine (congrFun hW (ix2 k (⟨(j 1).val, hj1⟩ : Fin 128))).trans (congrArg W ?_)
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · refine (congrFun hS (ix2 (⟨(j 0).val, hj0⟩ : Fin 5000) (0 : Fin 1))).trans (congrArg S ?_)
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- What point t writes back is block t of the whole-array function of the arrays the region finds. -/
theorem flushed_eq (c : Dev nD) (t : Fin cfg0.N) :
    (dats m 0 c).flushed 3 t
      = ((cfg0.win 3).blk t).view.read (Elt Ideal) (scaledRows (V m c main_arg0) (V m c main_v2) (V m c main_v14)) :=
  flushed_of_reads m c t (V m c main_arg0) (V m c main_v2) (V m c main_v14) rfl rfl rfl

/-- An index of the array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- The twenty blocks cover every row. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The region's output array after the run. -/
theorem final (c : Dev nD) :
    (dats m 0 c).arrAt 3 cfg0.N = scaledRows (V m c main_arg0) (V m c main_v2) (V m c main_v14) :=
  (dats m 0 c).arrAt_eq_of_cover 3 _ (fun t _ => flushed_eq m c t) covered

end Cert.KernelIdeal.Block

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.Edges.lean ====
/-
  Positions and nodes. An edge list stores node numbers as 32-bit words. A read "x[w]" first adds the number of
  nodes to a negative word and then clamps the result into the node range; an accumulation "y.at[w].add" uses the
  word as a signed integer as it is and drops it when it is not a node's number. When the word is the number of a
  node the read lands on that node too, and a loop's word (the node's own number, written by an iota) is such a
  word. Also: a sum over a list joined from a list of a entries and a list of b entries is the sum over the first
  plus the sum over the second.
-/
import Idealize.ShloMosaic.Lib.ValueIdx

noncomputable section

namespace Cert.Edges

open Idealize.ShloMosaic Idealize.ShloMosaic.ValueIdx
open scoped BigOperators

/-- A negative position counts from the end: the word with the number of nodes added when it is negative. -/
def wrap (w : BitVec 32) : BitVec 32 := Scalar.select (IntOp.cmpi .slt w 0#32) (IntOp.addi w 100000#32) w

/-- The node a read at position w lands on: the wrapped position as a signed integer, clamped into the node range. -/
def node (w : BitVec 32) : Fin 100000 := ⟨min (wrap w).toInt.toNat (100000 - 1), by omega⟩

/-- A word that is a node's number reads that node. -/
theorem node_of_toInt (w : BitVec 32) (n : Fin 100000) (h : w.toInt = (n.val : Int)) : node w = n := by
  have hn := n.isLt
  have hslt : w.slt 0#32 = false := by
    rw [BitVec.slt_eq_decide]
    have : (0#32 : BitVec 32).toInt = 0 := by decide
    rw [this, h]
    exact decide_eq_false (by omega)
  have hw : wrap w = w := by
    unfold wrap IntOp.cmpi
    simp only [hslt]
    exact select_zero _ _
  apply Fin.ext
  show min (wrap w).toInt.toNat (100000 - 1) = n.val
  rw [hw, h]; omega

/-- The word an iota writes at place l is l as a signed integer. -/
theorem toInt_ofNat (l : Fin 100000) : (BitVec.ofNat 32 l.val).toInt = (l.val : Int) := by
  have hl := l.isLt
  rw [BitVec.toInt_ofNat']
  have h1 : (l.val : Int) % (2 : Int) ^ 32 = l.val := Int.emod_eq_of_lt (by omega) (by omega)
  simp only [Int.bmod]
  omega

/-- So a loop's word reads its own node. -/
theorem node_ofNat (l : Fin 100000) : node (BitVec.ofNat 32 l.val) = l := node_of_toInt _ l (toInt_ofNat l)

/-- A sum over a joined list splits into the sums over its two parts. -/
theorem sum_join {M : Type*} [AddCommMonoid M] {a b t : Nat} (h : a + b = t) (f : Fin t → M) :
    ∑ i, f i = ∑ i : Fin a, f ⟨i.val, by omega⟩ + ∑ j : Fin b, f ⟨a + j.val, by omega⟩ := by
  subst h
  rw [Fin.sum_univ_add]
  rfl

/-- The f32 word 0x3F800000 denotes one. -/
theorem one_word : Ideal.ofBits .f32 0x3F800000#32 = (1 : EReal) := by
  simp [Ideal.ofBits, Ideal.ieee, -EReal.coe_mul]; norm_num

/-! ## The layer's data read off the five argument arrays -/

/-- Node features: entry (n, k) of the first argument. -/
def feat (x0 : (⟨2, ![100000, 128]⟩ : Shape).Idx → EReal) : Fin 100000 → Fin 128 → EReal := fun n k => x0 (ix2 n k)
/-- A weight matrix: entry (a, b) of a 128 × 128 argument. -/
def mat (x : (⟨2, ![128, 128]⟩ : Shape).Idx → EReal) : Fin 128 → Fin 128 → EReal := fun a b => x (ix2 a b)
/-- The bias: entry q of the last argument. -/
def bias (x4 : (⟨1, ![128]⟩ : Shape).Idx → EReal) : Fin 128 → EReal := fun q => x4 (ix1 q)
/-- Edge e's target position: row 1 of the edge list, as a signed integer. -/
def tgt (x1 : (⟨2, ![2, 1600000]⟩ : Shape).Idx → BitVec 32) : Fin 1600000 → Int := fun e => (x1 (ix2 (1 : Fin 2) e)).toInt
/-- Edge e's source node: what a read at row 0's word lands on. -/
def src (x1 : (⟨2, ![2, 1600000]⟩ : Shape).Idx → BitVec 32) : Fin 1600000 → Fin 100000 := fun e => node (x1 (ix2 (0 : Fin 2) e))
/-- The node a read at edge e's target word lands on. -/
def tgtNode (x1 : (⟨2, ![2, 1600000]⟩ : Shape).Idx → BitVec 32) : Fin 1600000 → Fin 100000 := fun e => node (x1 (ix2 (1 : Fin 2) e))

/-- A read at a target word that is a node's number lands on that node. -/
theorem tgtNode_of_tgt (x1 : (⟨2, ![2, 1600000]⟩ : Shape).Idx → BitVec 32) (e : Fin 1600000) (n : Fin 100000)
    (h : tgt x1 e = (n.val : Int)) : tgtNode x1 e = n := node_of_toInt _ n h

end Cert.Edges

end
-- ==== Proof.KTail.lean ====
/-
  The operations after the region, as one function of what they read, and that function at an index.

  They read the scale column S, the two position vectors (sources "row", targets "col"), the array H the region wrote
  and the bias b, and compute  S · (accumulate (H[row]) at col, from zero,  + H) + b : entry (n, q) is
  S n · ((0 + Σ over the edges e whose target position is n of H (source node of e, q)) + H (n, q)) + b q,
  where the source node of e is what a read at e's source position lands on (negative positions wrapped, then clamped).
-/
import proofs.«173724_j69320772158259_2_alg».proof.Proof.KBlock
import proofs.«173724_j69320772158259_2_alg».proof.Proof.LibHostRead
import proofs.«173724_j69320772158259_2_alg».proof.Proof.LibIndexOps
import proofs.«173724_j69320772158259_2_alg».proof.Proof.Edges
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.ValueIdx
open scoped BigOperators

/-- The operations after the region, composed. -/
def tailTerm (S : S100000x1.Idx → EReal) (col row : S1600000.Idx → BitVec 32) (H : S100000x128.Idx → EReal)
    (b : S128.Idx → EReal) : S100000x128.Idx → EReal :=
  addf (F := Ideal)
    (mulf (F := Ideal) (broadcastInDim S100000x128 ![0, 1] bcast_S100000x1_S100000x128_0_1 S)
      (addf (F := Ideal)
        (Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 col)
          (Host.gather gather_S100000x128_S1600000x1_S1600000x128_1_0_n_n_0_1_1128 H
            (broadcastInDim S1600000x1 ![0] bcast_S1600000_S1600000x1_0
              (select (cmpi .slt row (broadcastInDim S1600000 ![] bcast_S_S1600000 (constantI S_ 32 0#32)))
                (addi row (broadcastInDim S1600000 ![] bcast_S_S1600000 (constantI S_ 32 100000#32)))
                row))))
        H))
    (broadcastInDim S100000x128 ![0, 1] bcast_S1x128_S100000x128_0_1 (broadcastInDim S1x128 ![1] bcast_S128_S1x128_1 b))

/-- The accumulation of rows at an entry, for the program's own record. -/
theorem scatter_at (y : FVec Ideal S100000x128 .f32) (idx : IVec S1600000x1 32) (u : FVec Ideal S1600000x128 .f32)
    (n : Fin 100000) (q : Fin 128) :
    Host.scatterAdd (F := Ideal) scatter_S100000x128_S1600000x1_S1600000x128_1_0_0_1 y idx u (ix2 n q)
      = y (ix2 n q) + ∑ e : Fin 1600000, if (idx (ix2 e (0 : Fin 1))).toInt = (n.val : Int) then u (ix2 e q) else 0 :=
  LibIndexOps.scatterAdd_rows_apply (N := 100000) (M := 1600000) (D := 128)
    scatter_S100000x128_S1600000x1_S1600000x128_1_0_0_1.wf y idx u n q

/-- The read of rows at an entry, for the program's own record. -/
theorem gather_at (x : FVec Ideal S100000x128 .f32) (idx : IVec S1600000x1 32) (e : Fin 1600000) (q : Fin 128) :
    Host.gather gather_S100000x128_S1600000x1_S1600000x128_1_0_n_n_0_1_1128 x idx (ix2 e q)
      = x (ix2 (⟨min (idx (ix2 e (0 : Fin 1))).toInt.toNat (100000 - 1), by omega⟩ : Fin 100000) q) :=
  LibIndexOps.gather_rows_apply (N := 100000) (M := 1600000) (D := 128) (by decide)
    gather_S100000x128_S1600000x1_S1600000x128_1_0_n_n_0_1_1128.wf x idx e q

/-- Entry (n, q) of the composed operations. -/
theorem tail_apply (S : S100000x1.Idx → EReal) (col row : S1600000.Idx → BitVec 32) (H : S100000x128.Idx → EReal)
    (b : S128.Idx → EReal) (n : Fin 100000) (q : Fin 128) :
    tailTerm S col row H b (ix2 n q)
      = S (ix2 n (0 : Fin 1)) * ((0 + ∑ e : Fin 1600000,
          if (col (ix1 e)).toInt = (n.val : Int) then H (ix2 (Edges.node (row (ix1 e))) q) else 0) + H (ix2 n q))
        + b (ix1 q) := by
  unfold tailTerm
  rw [addf_apply, mulf_apply, addf_apply, LibHostRead.bcast_a1_ab_apply _ bcast_S100000x1_S100000x128_0_1 n q,
    LibHostRead.bcastRow_apply b bcast_S128_S1x128_1 bcast_S1x128_S100000x128_0_1 n q, scatter_at]
  simp only [LibHostRead.bcastConst_apply, Ideal.ofBits_zero_f32]
  refine congrArg (fun z : EReal => S (ix2 n (0 : Fin 1)) * ((0 + z) + H (ix2 n q)) + b (ix1 q)) ?_
  refine Finset.sum_congr rfl fun e _ => ?_
  rw [LibHostRead.bcast_a_a1_apply col bcast_S1600000_S1600000x1_0 e (0 : Fin 1), gather_at]
  refine congrArg (fun r : Fin 100000 => if (col (ix1 e)).toInt = (n.val : Int) then H (ix2 r q) else 0) (Fin.ext ?_)
  unfold Edges.node
  dsimp only
  rw [LibHostRead.bcast_a_a1_apply _ bcast_S1600000_S1600000x1_0 e (0 : Fin 1)]
  rfl

variable (m : (ℓ : Loc nD τ sig) → Buf (Elt Ideal) ℓ)

set_option maxHeartbeats 4000000 in
/-- The operations after the region, run from any buffer contents: their result is the composed function of the five
    buffers they read. -/
theorem after_eq (W : Valuation τ sig (Elt Ideal)) (S : S100000x1.Idx → EReal) (col row : S1600000.Idx → BitVec 32)
    (H : S100000x128.Idx → EReal) (b : S128.Idx → EReal)
    (h14 : W (Proc.devRef .tc main_v14) = S) (h6 : W (Proc.devRef .tc main_v6) = col)
    (h4 : W (Proc.devRef .tc main_v4) = row) (h15 : W (Proc.devRef .tc main_v15) = H)
    (hb : W (Proc.devRef .tc main_arg4) = b) :
    (StableHlo.after hostOps1 W (Proc.devRef .tc main_v31) : S100000x128.Idx → EReal) = tailTerm S col row H b := by
  subst h14 h6 h4 h15 hb
  after_results
  rfl

/-- The program's result: the operations after the region applied to what the region and the operations before it left. -/
theorem result_eq (c : Dev nD) :
    (Pipeline.afterTail₀ cfgs (dats m) 0 (V0 m) [hostOps1] c main_v31 : S100000x128.Idx → EReal)
      = tailTerm (V m c main_v14) (V m c main_v6) (V m c main_v4)
          (Block.scaledRows (V m c main_arg0) (V m c main_v2) (V m c main_v14)) (m ((c : Thread nD τ).loc main_arg4)) := by
  unfold Pipeline.afterTail₀
  exact after_eq _ _ _ _ _ _
    ((Pipeline.withArrays_arr spec0 launch0.win.arr_inj c _ _ 2).trans (((dats m 0 c).arrAt_in 2 rfl _).trans (A_eq m c 2)))
    (Pipeline.withArrays_of_ne _ c (V0 m c) _ main_v6 (by exact (by decide : ∀ w, Pipeline.arrRef spec0 w ≠ main_v6)))
    (Pipeline.withArrays_of_ne _ c (V0 m c) _ main_v4 (by exact (by decide : ∀ w, Pipeline.arrRef spec0 w ≠ main_v4)))
    ((Pipeline.withArrays_arr spec0 launch0.win.arr_inj c _ _ 3).trans (Block.final m c))
    ((Pipeline.withArrays_of_ne _ c (V0 m c) _ main_arg4 (by exact (by decide : ∀ w, Pipeline.arrRef spec0 w ≠ main_arg4))).trans
      (V_main_arg4 m c))

end Cert.KernelIdeal.Tail

end
-- ==== Proof.Spec.lean ====
/-
  One graph-convolution layer with symmetric normalisation, in the two arrangements the two programs compute, on the
  extended reals, for any numbers of nodes N, edges E and any widths.

  Data: node features x (N × K), two weight matrices Wl (J × K) and Wg (D × J), a bias b (D); for each edge e a target
  position ci e (a signed integer: the edge counts only when it is the number of a node), a source node ri e, and the
  node gc e that a clamped read at the target position gives (it is the target node whenever the target position is a
  node's number).

  Degree of node n: one (its self loop) plus the number of edges whose target is n; dinv n = degree^(-1/2).
  First arrangement ("scale, sum, scale"): project with the combined weight, h n q = Σ_k x n k · (Σ_j Wl j k · Wg q j),
  scale each row by dinv, g = h · dinv; result n q = dinv n · (Σ_{e → n} g (ri e) q + g n q) + b q.
  Second arrangement ("one list of edges and loops"): project in two steps, h' n q = Σ_j (Σ_k x n k · Wl j k) · Wg q j;
  the degree is counted over edges and loops together and guarded by "if degree > 0"; result n q =
  Σ_{e → n} h' (ri e) q · (dinv (ri e) · dinv (gc e)) + Σ_{loops l = n} h' l q · (dinv l · dinv l), plus b q.

  They agree when x, Wl and Wg hold real numbers: the degree is a real number at least one, so the guard is dead and
  dinv n is a nonnegative real, which distributes over any sum of extended reals; the two projections agree because
  finite sums of real products may be exchanged.
-/
import Idealize.ShloMosaic.PureOps.Ideal

noncomputable section

namespace Cert.Spec

open Idealize.ShloMosaic
open scoped BigOperators

variable {N E D K J : Nat}

/-! ## The first arrangement -/

/-- Degree: the edges into n, counted from zero, then the self loop. -/
def degK (ci : Fin E → Int) (n : Fin N) : EReal :=
  (0 + ∑ e : Fin E, if ci e = (n.val : Int) then (1 : EReal) else 0) + 1

def dinvK (ci : Fin E → Int) (n : Fin N) : EReal := Ideal.rsqrt (degK ci n)

/-- The combined weight (Wlᵀ · Wgᵀ) at (k, q). -/
def wcomb (Wl : Fin J → Fin K → EReal) (Wg : Fin D → Fin J → EReal) (k : Fin K) (q : Fin D) : EReal :=
  ∑ j : Fin J, Wl j k * Wg q j

def projK (x : Fin N → Fin K → EReal) (Wl : Fin J → Fin K → EReal) (Wg : Fin D → Fin J → EReal) (n : Fin N) (q : Fin D) : EReal :=
  ∑ k : Fin K, x n k * wcomb Wl Wg k q

/-- The projected row scaled by the node's own dinv. -/
def scaledK (x : Fin N → Fin K → EReal) (Wl : Fin J → Fin K → EReal) (Wg : Fin D → Fin J → EReal) (ci : Fin E → Int)
    (n : Fin N) (q : Fin D) : EReal :=
  projK x Wl Wg n q * dinvK ci n

def outK (x : Fin N → Fin K → EReal) (Wl : Fin J → Fin K → EReal) (Wg : Fin D → Fin J → EReal) (b : Fin D → EReal)
    (ci : Fin E → Int) (ri : Fin E → Fin N) (n : Fin N) (q : Fin D) : EReal :=
  dinvK ci n * ((0 + ∑ e : Fin E, if ci e = (n.val : Int) then scaledK x Wl Wg ci (ri e) q else 0) + scaledK x Wl Wg ci n q) + b q

/-! ## The second arrangement -/

/-- Degree: edges and loops in one list, counted from zero. -/
def degR (ci : Fin E → Int) (n : Fin N) : EReal :=
  0 + ((∑ e : Fin E, if ci e = (n.val : Int) then (1 : EReal) else 0)
    + ∑ l : Fin N, if (l.val : Int) = (n.val : Int) then (1 : EReal) else 0)

/-- dinv with the guard "degree > 0". -/
def dinvR (ci : Fin E → Int) (n : Fin N) : EReal :=
  Scalar.select (Ideal.cmp .ogt (degR ci n) 0) (Ideal.rsqrt (degR ci n)) 0

def projR (x : Fin N → Fin K → EReal) (Wl : Fin J → Fin K → EReal) (Wg : Fin D → Fin J → EReal) (n : Fin N) (q : Fin D) : EReal :=
  ∑ j : Fin J, (∑ k : Fin K, x n k * Wl j k) * Wg q j

def outR (x : Fin N → Fin K → EReal) (Wl : Fin J → Fin K → EReal) (Wg : Fin D → Fin J → EReal) (b : Fin D → EReal)
    (ci : Fin E → Int) (ri gc : Fin E → Fin N) (n : Fin N) (q : Fin D) : EReal :=
  (0 + ((∑ e : Fin E, if ci e = (n.val : Int) then projR x Wl Wg (ri e) q * (dinvR ci (ri e) * dinvR ci (gc e)) else 0)
    + ∑ l : Fin N, if (l.val : Int) = (n.val : Int) then projR x Wl Wg l q * (dinvR ci l * dinvR ci l) else 0)) + b q

/-! ## They agree -/

/-- A finite sum of real numbers, read in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative finite factor distributes over any finite sum of extended reals. -/
theorem mul_sum_of_nonneg {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The list of loops contributes exactly the term of the loop at n. -/
theorem sum_loop (n : Fin N) (f : Fin N → EReal) :
    (∑ l : Fin N, if (l.val : Int) = (n.val : Int) then f l else 0) = f n := by
  have h : ∀ l : Fin N, ((l.val : Int) = (n.val : Int)) ↔ l = n := by
    intro l
    constructor
    · intro h
      exact Fin.ext (by exact_mod_cast h)
    · intro h
      rw [h]
  simp only [h]
  rw [Finset.sum_ite_eq']
  simp

/-- Counting edges and loops together gives the same degree. -/
theorem degR_eq (ci : Fin E → Int) (n : Fin N) : degR ci n = degK ci n := by
  unfold degR degK
  rw [sum_loop n (fun _ => (1 : EReal)), zero_add, zero_add]

/-- The degree is a real number, at least one. -/
theorem degK_real (ci : Fin E → Int) (n : Fin N) : ∃ r : ℝ, 1 ≤ r ∧ degK ci n = r := by
  refine ⟨(∑ e : Fin E, if ci e = (n.val : Int) then (1 : ℝ) else 0) + 1, ?_, ?_⟩
  · have : 0 ≤ ∑ e : Fin E, if ci e = (n.val : Int) then (1 : ℝ) else 0 := by
      apply Finset.sum_nonneg
      intro e _
      split_ifs <;> norm_num
    linarith
  · unfold degK
    have h : ∀ e : Fin E, (if ci e = (n.val : Int) then (1 : EReal) else 0)
        = (((if ci e = (n.val : Int) then (1 : ℝ) else 0) : ℝ) : EReal) := by
      intro e
      split_ifs <;> simp
    simp only [h]
    rw [coe_sum, zero_add, EReal.coe_add, EReal.coe_one]

/-- dinv is a nonnegative real number. -/
theorem dinvK_real (ci : Fin E → Int) (n : Fin N) : ∃ s : ℝ, 0 ≤ s ∧ dinvK ci n = s := by
  obtain ⟨r, hr1, hr⟩ := degK_real ci n
  refine ⟨(Real.sqrt r)⁻¹, inv_nonneg.2 (Real.sqrt_nonneg r), ?_⟩
  unfold dinvK
  rw [hr, Ideal.rsqrt_coe, if_neg (not_lt.2 (by linarith)), if_neg (by linarith : r ≠ 0)]

/-- The guard "degree > 0" is always taken. -/
theorem dinvR_eq (ci : Fin E → Int) (n : Fin N) : dinvR ci n = dinvK ci n := by
  obtain ⟨r, hr1, hr⟩ := degK_real ci n
  have hpos : (0 : EReal) < degK ci n := by
    rw [hr]
    exact_mod_cast (by linarith : (0 : ℝ) < r)
  unfold dinvR
  rw [degR_eq]
  simp [Scalar.select, Ideal.cmp, hpos, dinvK]

/-- For real data the two projections agree: finite sums of real products may be exchanged. -/
theorem projR_eq (x : Fin N → Fin K → EReal) (Wl : Fin J → Fin K → EReal) (Wg : Fin D → Fin J → EReal)
    (hx : ∀ n k, ∃ r : ℝ, x n k = r) (hWl : ∀ j k, ∃ r : ℝ, Wl j k = r) (hWg : ∀ q j, ∃ r : ℝ, Wg q j = r)
    (n : Fin N) (q : Fin D) : projR x Wl Wg n q = projK x Wl Wg n q := by
  choose xr hxr using hx
  choose wl hwl using hWl
  choose wg hwg using hWg
  unfold projR projK wcomb
  simp only [hxr, hwl, hwg, ← EReal.coe_mul, coe_sum]
  congr 1
  simp only [Finset.sum_mul, Finset.mul_sum]
  rw [Finset.sum_comm]
  simp only [mul_assoc]

/-- The two arrangements give the same entry when the features and the weights are real numbers and a clamped read at
    an in-range target position reads the target node. -/
theorem outK_eq_outR (x : Fin N → Fin K → EReal) (Wl : Fin J → Fin K → EReal) (Wg : Fin D → Fin J → EReal) (b : Fin D → EReal)
    (ci : Fin E → Int) (ri gc : Fin E → Fin N)
    (hx : ∀ n k, ∃ r : ℝ, x n k = r) (hWl : ∀ j k, ∃ r : ℝ, Wl j k = r) (hWg : ∀ q j, ∃ r : ℝ, Wg q j = r)
    (hgc : ∀ e (n : Fin N), ci e = (n.val : Int) → gc e = n) (n : Fin N) (q : Fin D) :
    outK x Wl Wg b ci ri n q = outR x Wl Wg b ci ri gc n q := by
  obtain ⟨s, hs0, hs⟩ := dinvK_real ci n
  have h0 : (0 : EReal) ≤ dinvK ci n := by
    rw [hs]
    exact_mod_cast hs0
  have ht : dinvK ci n ≠ ⊤ := by
    rw [hs]
    exact EReal.coe_ne_top s
  unfold outK outR scaledK
  congr 1
  rw [sum_loop n (fun l => projR x Wl Wg l q * (dinvR ci l * dinvR ci l))]
  simp only [zero_add, dinvR_eq, projR_eq x Wl Wg hx hWl hWg]
  rw [EReal.left_distrib_of_nonneg_of_ne_top h0 ht, mul_sum_of_nonneg _ _ h0 ht]
  congr 1
  · apply Finset.sum_congr rfl
    intro e _
    by_cases h : ci e = (n.val : Int)
    · rw [if_pos h, if_pos h, hgc e n h, mul_comm (dinvK ci n), mul_assoc]
    · rw [if_neg h, if_neg h, mul_zero]
  · rw [mul_left_comm]

end Cert.Spec

end
-- ==== Proof.KEntry.lean ====
/-
  What the region and the operations after it find in the arrays the program computes BEFORE the region, read at an
  index: the combined weight (the product of the two transposed weight matrices), the one-column array of
  degree^(-1/2), and the two rows of the edge list as vectors of positions.
-/
import proofs.«173724_j69320772158259_2_alg».proof.Proof.Gen.KernelIdeal.Frame
import proofs.«173724_j69320772158259_2_alg».proof.Proof.LibDot
import proofs.«173724_j69320772158259_2_alg».proof.Proof.LibHostRead
import proofs.«173724_j69320772158259_2_alg».proof.Proof.LibIndexOps
import proofs.«173724_j69320772158259_2_alg».proof.Proof.Edges
import proofs.«173724_j69320772158259_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx
open scoped BigOperators

/-! ## The operations' terms -/

/-- The product of the two transposed weight matrices. -/
def weightTerm (x2 x3 : FVec Ideal S128x128 .f32) : FVec Ideal S128x128 .f32 :=
  Host.dotGeneral (F := Ideal) dot_S128x128_S128x128_S128x128_1_0_0_1_n_n none
    (transpose S128x128 [1, 0] x2 transposes_S128x128_S128x128_1_0)
    (transpose S128x128 [1, 0] x3 transposes_S128x128_S128x128_1_0)

/-- Row r of the edge list as a vector. -/
def rowTerm0 (x1 : IVec S2x1600000 32) : IVec S1600000 32 :=
  shapeCast S1600000 (extractStridedSlice S1x1600000 ![0, 0] x1 slices_S2x1600000_S1x1600000_0_0) shapeCasts_S1x1600000_S1600000
def rowTerm1 (x1 : IVec S2x1600000 32) : IVec S1600000 32 :=
  shapeCast S1600000 (extractStridedSlice S1x1600000 ![1, 0] x1 slices_S2x1600000_S1x1600000_1_0) shapeCasts_S1x1600000_S1600000

/-- degree^(-1/2) as a one-column array: ones accumulated at the target positions from zero, one added, rsqrt. -/
def scaleTerm (x1 : IVec S2x1600000 32) : FVec Ideal S100000x1 .f32 :=
  broadcastInDim S100000x1 ![0] bcast_S100000_S100000x1_0
    (Host.rsqrt (F := Ideal)
      (addf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (rowTerm1 x1))
          (broadcastInDim S1600000 ![] bcast_S_S1600000 (constant (F := Ideal) S_ .f32 0x3F800000#32)))
        (broadcastInDim S100000 ![] bcast_S_S100000 (constant (F := Ideal) S_ .f32 0x3F800000#32))))

variable (m : (ℓ : Loc nD τ sig) → Buf (Elt Ideal) ℓ)

theorem entry_weight (c : Dev nD) :
    (V m c main_v2 : FVec Ideal S128x128 .f32)
      = weightTerm (m ((c : Thread nD τ).loc main_arg2)) (m ((c : Thread nD τ).loc main_arg3)) := by
  show StableHlo.after hostOps0 (fun b => m (c, b)) (Proc.devRef .tc main_v2) = _
  after_results
  rfl

theorem entry_row0 (c : Dev nD) :
    (V m c main_v4 : IVec S1600000 32) = rowTerm0 (m ((c : Thread nD τ).loc main_arg1)) := by
  show StableHlo.after hostOps0 (fun b => m (c, b)) (Proc.devRef .tc main_v4) = _
  after_results
  rfl

theorem entry_row1 (c : Dev nD) :
    (V m c main_v6 : IVec S1600000 32) = rowTerm1 (m ((c : Thread nD τ).loc main_arg1)) := by
  show StableHlo.after hostOps0 (fun b => m (c, b)) (Proc.devRef .tc main_v6) = _
  after_results
  rfl

theorem entry_scale (c : Dev nD) :
    (V m c main_v14 : FVec Ideal S100000x1 .f32) = scaleTerm (m ((c : Thread nD τ).loc main_arg1)) := by
  show StableHlo.after hostOps0 (fun b => m (c, b)) (Proc.devRef .tc main_v14) = _
  after_results
  rfl

/-! ## The terms at an index -/

theorem transpose_at (x : FVec Ideal S128x128 .f32) (a b : Fin 128) :
    transpose S128x128 [1, 0] x transposes_S128x128_S128x128_1_0 (ix2 a b) = x (ix2 b a) :=
  transpose_apply [1, 0] x transposes_S128x128_S128x128_1_0 (ix2 a b) (ix2 b a) (fun d => match d with
    | ⟨0, _⟩ => rfl
    | ⟨1, _⟩ => rfl)

/-- The combined weight at (k, q): the sum over j of Wl (j, k) · Wg (q, j). -/
theorem weight_apply (x2 x3 : FVec Ideal S128x128 .f32) (k q : Fin 128) :
    weightTerm x2 x3 (ix2 k q) = Spec.wcomb (Edges.mat x2) (Edges.mat x3) k q := by
  unfold weightTerm Spec.wcomb Edges.mat
  refine (LibDot.dotGeneral_apply (m := 128) (k := 128) (n := 128) dot_S128x128_S128x128_S128x128_1_0_0_1_n_n.wf none
    (transpose S128x128 [1, 0] x2 transposes_S128x128_S128x128_1_0)
    (transpose S128x128 [1, 0] x3 transposes_S128x128_S128x128_1_0) k q).trans ?_
  refine Finset.sum_congr rfl fun j _ => ?_
  rw [transpose_at, transpose_at]

theorem row0_apply (x1 : IVec S2x1600000 32) (e : Fin 1600000) :
    rowTerm0 x1 (ix1 e) = x1 (ix2 (0 : Fin 2) e) := by
  unfold rowTerm0
  have he := e.isLt
  rw [shapeCast_apply _ shapeCasts_S1x1600000_S1600000 (ix1 e) (ix2 (0 : Fin 1) e)
    (by rw [Shape.rowMajor_val_two, Shape.rowMajor_val_one]; show 0 * 1600000 + e.val = e.val; omega)]
  exact extractStridedSlice_apply ![0, 0] x1 slices_S2x1600000_S1x1600000_0_0 (ix2 (0 : Fin 1) e) (ix2 (0 : Fin 2) e)
    (fun a => match a with
      | ⟨0, _⟩ => by show (0 : Nat) = 0 + 0; rfl
      | ⟨1, _⟩ => by show e.val = 0 + e.val; omega)

theorem row1_apply (x1 : IVec S2x1600000 32) (e : Fin 1600000) :
    rowTerm1 x1 (ix1 e) = x1 (ix2 (1 : Fin 2) e) := by
  unfold rowTerm1
  have he := e.isLt
  rw [shapeCast_apply _ shapeCasts_S1x1600000_S1600000 (ix1 e) (ix2 (0 : Fin 1) e)
    (by rw [Shape.rowMajor_val_two, Shape.rowMajor_val_one]; show 0 * 1600000 + e.val = e.val; omega)]
  exact extractStridedSlice_apply ![1, 0] x1 slices_S2x1600000_S1x1600000_1_0 (ix2 (0 : Fin 1) e) (ix2 (1 : Fin 2) e)
    (fun a => match a with
      | ⟨0, _⟩ => by show (1 : Nat) = 1 + 0; rfl
      | ⟨1, _⟩ => by show e.val = 0 + e.val; omega)

/-- The scale column at row n: degree^(-1/2) of node n. -/
theorem scale_apply (x1 : IVec S2x1600000 32) (n : Fin 100000) (z : Fin 1) :
    scaleTerm x1 (ix2 n z) = Spec.dinvK (Edges.tgt x1) n := by
  unfold scaleTerm Spec.dinvK Spec.degK
  rw [LibHostRead.bcast_a_a1_apply _ bcast_S100000_S100000x1_0 n z, LibHostRead.hostRsqrt_apply, addf_apply]
  have hsc := LibIndexOps.scatterAdd_vec_apply (N := 100000) (M := 1600000) scatter_S100000_S1600000x1_S1600000_n_0_0_1.wf
    (broadcastInDim S100000 ![] bcast_S_S100000 (constant (F := Ideal) S_ .f32 0x00000000#32))
    (broadcastInDim S1600000x1 ![0] bcast_S1600000_S1600000x1_0 (rowTerm1 x1))
    (broadcastInDim S1600000 ![] bcast_S_S1600000 (constant (F := Ideal) S_ .f32 0x3F800000#32)) n
  rw [show Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (rowTerm1 x1))
      (broadcastInDim S1600000 ![] bcast_S_S1600000 (constant (F := Ideal) S_ .f32 0x3F800000#32)) (ix1 n) = _ from hsc]
  simp only [LibHostRead.bcastConst_apply, Edges.one_word, Ideal.ofBits_zero_f32]
  refine congrArg (fun z : EReal => Ideal.rsqrt ((0 + z) + 1)) ?_
  refine Finset.sum_congr rfl fun e _ => ?_
  rw [LibHostRead.bcast_a_a1_apply _ bcast_S1600000_S1600000x1_0 e (0 : Fin 1), row1_apply]
  rfl

end Cert.KernelIdeal.Entry

end
-- ==== Proof.KValue.lean ====
/-
  The kernel program's result at an index, in the layer's own terms: entry (n, q) is
  dinv n · ((0 + Σ over the edges into n of g (source node, q)) + g (n, q)) + b q, where g is the projection by the
  combined weight scaled row by row by dinv — the first arrangement of the layer.
-/
import proofs.«173724_j69320772158259_2_alg».proof.Proof.KTail
import proofs.«173724_j69320772158259_2_alg».proof.Proof.KEntry

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open scoped BigOperators

/-- The array the region writes, at (r, q), when the three arrays it reads are the features, the combined weight and
    the scale column: the projected row r scaled by dinv r. -/
theorem rows_of (X : S100000x128.Idx → EReal) (W : S128x128.Idx → EReal) (S : S100000x1.Idx → EReal)
    (x0 : FVec Ideal S100000x128 .f32) (x1 : IVec S2x1600000 32) (x2 x3 : FVec Ideal S128x128 .f32)
    (hX : X = x0) (hW : W = Entry.weightTerm x2 x3) (hS : S = Entry.scaleTerm x1) (r : Fin 100000) (q : Fin 128) :
    Block.scaledRows X W S (ix2 r q)
      = Spec.scaledK (Edges.feat x0) (Edges.mat x2) (Edges.mat x3) (Edges.tgt x1) r q := by
  subst hX hW hS
  refine (Block.scaledRows_apply X (Entry.weightTerm x2 x3) (Entry.scaleTerm x1) r q).trans ?_
  unfold Spec.scaledK Spec.projK Edges.feat
  exact congrArg₂ (fun a b : EReal => a * b)
    (Finset.sum_congr rfl fun k _ => congrArg (fun z : EReal => X (ix2 r k) * z) (Entry.weight_apply x2 x3 k q))
    (Entry.scale_apply x1 r (0 : Fin 1))

/-- The operations after the region at (n, q), when what they read is the scale column, the two position vectors, the
    scaled projection and the bias: the first arrangement of the layer. -/
theorem entry_of (S : S100000x1.Idx → EReal) (col row : S1600000.Idx → BitVec 32) (H : S100000x128.Idx → EReal)
    (b : S128.Idx → EReal)
    (x0 : FVec Ideal S100000x128 .f32) (x1 : IVec S2x1600000 32) (x2 x3 : FVec Ideal S128x128 .f32) (x4 : FVec Ideal S128 .f32)
    (hS : S = Entry.scaleTerm x1) (hcol : col = Entry.rowTerm1 x1) (hrow : row = Entry.rowTerm0 x1)
    (hH : ∀ r q, H (ix2 r q) = Spec.scaledK (Edges.feat x0) (Edges.mat x2) (Edges.mat x3) (Edges.tgt x1) r q)
    (hb : b = x4) (n : Fin 100000) (q : Fin 128) :
    Tail.tailTerm S col row H b (ix2 n q)
      = Spec.outK (Edges.feat x0) (Edges.mat x2) (Edges.mat x3) (Edges.bias x4) (Edges.tgt x1) (Edges.src x1) n q := by
  subst hS hcol hrow hb
  rw [Tail.tail_apply, Entry.scale_apply, hH n q]
  simp only [Entry.row1_apply, Entry.row0_apply, hH]
  rfl

variable (m : (ℓ : Loc nD τ sig) → Buf (Elt Ideal) ℓ)

/-- The program's result at (n, q). -/
theorem kernel_entry (c : Dev nD) (n : Fin 100000) (q : Fin 128) :
    (Pipeline.afterTail₀ cfgs (dats m) 0 (V0 m) [hostOps1] c main_v31 : S100000x128.Idx → EReal) (ix2 n q)
      = Spec.outK (Edges.feat (m ((c : Thread nD τ).loc main_arg0))) (Edges.mat (m ((c : Thread nD τ).loc main_arg2)))
          (Edges.mat (m ((c : Thread nD τ).loc main_arg3))) (Edges.bias (m ((c : Thread nD τ).loc main_arg4)))
          (Edges.tgt (m ((c : Thread nD τ).loc main_arg1))) (Edges.src (m ((c : Thread nD τ).loc main_arg1))) n q :=
  (congrFun (Tail.result_eq m c) (ix2 n q)).trans
    (entry_of _ _ _ _ _ (m ((c : Thread nD τ).loc main_arg0)) (m ((c : Thread nD τ).loc main_arg1))
      (m ((c : Thread nD τ).loc main_arg2)) (m ((c : Thread nD τ).loc main_arg3)) (m ((c : Thread nD τ).loc main_arg4))
      (Entry.entry_scale m c) (Entry.entry_row1 m c) (Entry.entry_row0 m c)
      (fun r q => rows_of _ _ _ (m ((c : Thread nD τ).loc main_arg0)) (m ((c : Thread nD τ).loc main_arg1))
        (m ((c : Thread nD τ).loc main_arg2)) (m ((c : Thread nD τ).loc main_arg3))
        (V_main_arg0 m c) (Entry.entry_weight m c) (Entry.entry_scale m c) r q)
      rfl n q)

end Cert.KernelIdeal.Value

end
-- ==== Proof.LibConcatVec.lean ====
/-
  Two vectors laid end to end (a concatenation along the only axis) read at an entry: entry c of the joined
  length-t vector is entry c of the left length-a piece when c < a, and entry c - a of the right length-b piece
  otherwise (a + b = t).
-/
import Idealize.ShloMosaic.Lib.Pipeline.Value
import Idealize.ShloMosaic.Lib.ValueIdx

noncomputable section

namespace Cert.LibConcatVec

open Idealize.ShloMosaic Idealize.ShloMosaic.ValueIdx

variable {α : Type} {a b t : Nat}

/-- Entry c of two vectors joined end to end: the left piece's entry when c is one of its positions, otherwise the
    right piece's entry, a positions further left. -/
theorem concat_vec_apply (hab : a + b = t)
    (x : (⟨1, ![a]⟩ : Shape).Idx → α) (y : (⟨1, ![b]⟩ : Shape).Idx → α)
    (h : Shape.Concatenates [(⟨1, ![a]⟩ : Shape), ⟨1, ![b]⟩] ⟨1, ![t]⟩ 0) (c : Fin t) :
    concatenate (⟨1, ![t]⟩ : Shape) 0 [⟨⟨1, ![a]⟩, x⟩, ⟨⟨1, ![b]⟩, y⟩] h (ix1 c)
      = if hc : c.val < a then x (ix1 ⟨c.val, hc⟩) else y (ix1 ⟨c.val - a, by omega⟩) := by
  split
  · next hc =>
    exact concatenate_pair_apply_left (0 : Fin 1) x y h (ix1 c) rfl (ix1 ⟨c.val, hc⟩)
      (fun d => match d with | ⟨0, _⟩ => rfl)
  · next hc =>
    exact concatenate_pair_apply_right (0 : Fin 1) x y h (ix1 c) rfl rfl (ix1 ⟨c.val - a, by omega⟩)
      (fun d hd => match d, hd with
        | ⟨0, _⟩, hd => absurd rfl hd)
      (by show (c.val - a) + a = c.val; omega)

end Cert.LibConcatVec
-- ==== Proof.RefValue.lean ====
/-
  The reference program's result read at an entry (n, q), as the second arrangement of the layer (Spec.outR) on the
  data read off the five arguments.

  The program projects the features in two steps, h = (x · Wlᵀ) · Wgᵀ; joins the edge list with one loop per node
  (the loop at place l carries the word l in both rows); counts, for each node, the joined entries whose target word
  is the node's number (the degree); takes dinv = degree^(-1/2) under the guard "degree > 0"; reads dinv at the
  source and at the target position of every joined entry and h at the source position (reads wrap a negative
  position and clamp); multiplies; accumulates the products at the target words; adds the bias row.
  Every sum over the joined list splits into the sum over the edges and the sum over the loops, and a loop's word
  reads its own node, which gives exactly the two sums of Spec.outR.
-/
import proofs.«173724_j69320772158259_2_alg».proof.Proof.RefRead
import proofs.«173724_j69320772158259_2_alg».proof.Proof.LibIndexOps
import proofs.«173724_j69320772158259_2_alg».proof.Proof.LibConcatVec
import proofs.«173724_j69320772158259_2_alg».proof.Proof.Edges
import proofs.«173724_j69320772158259_2_alg».proof.Proof.Spec

noncomputable section

namespace Cert.RefValue

open Cert.ReferenceIdeal Cert.ReferenceIdeal.Gen Cert.ReferenceIdeal.ReadP Idealize.ShloMosaic Idealize.ShloMosaic.ValueIdx
open scoped BigOperators

/-! ## Indices -/

/-- A two-axis index is determined by its two coordinates. -/
theorem idx2_eq {n0 n1 : Nat} (f : (⟨2, ![n0, n1]⟩ : Shape).Idx) (a : Fin n0) (b : Fin n1)
    (h0 : f 0 = a) (h1 : f 1 = b) : f = ix2 a b := by
  funext d
  match d with
  | ⟨0, _⟩ => exact h0
  | ⟨1, _⟩ => exact h1

/-- A one-axis index is determined by its coordinate. -/
theorem idx1_eq {n0 : Nat} (f : (⟨1, ![n0]⟩ : Shape).Idx) (a : Fin n0) (h0 : f 0 = a) : f = ix1 a := by
  funext d
  match d with
  | ⟨0, _⟩ => exact h0

/-! ## The projection: h n q = Σ_j (Σ_k x n k · Wl j k) · Wg q j -/

theorem proj_entry (x0 : (⟨S100000x128, .f32⟩ : BufTy).Contents (Elt Ideal))
    (x2 x3 : (⟨S128x128, .f32⟩ : BufTy).Contents (Elt Ideal)) (n : Fin 100000) (q : Fin 128) :
    val_main_v3 (F := Ideal) x0 x2 x3 (ix2 n q)
      = Cert.Spec.projR (Cert.Edges.feat x0) (Cert.Edges.mat x2) (Cert.Edges.mat x3) n q := by
  rw [val_main_v3_apply]
  unfold Cert.Spec.projR
  refine Finset.sum_congr rfl fun j _ => ?_
  rw [idx2_eq (lidx_main_v3 (ix2 n q) j) n j rfl rfl, idx2_eq (ridx_main_v3 (ix2 n q) j) j q rfl rfl,
    val_main_v2_apply, val_main_v1_apply, idx2_eq (idx_main_v2 (ix2 j q)) q j rfl rfl]
  congr 1
  refine Finset.sum_congr rfl fun k _ => ?_
  rw [idx2_eq (lidx_main_v1 (ix2 n j) k) n k rfl rfl, idx2_eq (ridx_main_v1 (ix2 n j) k) k j rfl rfl,
    val_main_v0_apply, idx2_eq (idx_main_v0 (ix2 k j)) j k rfl rfl]
  rfl

/-! ## The joined lists: the edges' words, then the word l at the loop of node l -/

/-- Row r of the edge list, read through the slice and the reshape. -/
theorem row0_entry (x1 : (⟨S2x1600000, .i32⟩ : BufTy).Contents (Elt Ideal)) (e : Fin 1600000) :
    val_main_v6 (F := Ideal) x1 (ix1 e) = x1 (ix2 (0 : Fin 2) e) := by
  rw [val_main_v6_apply, val_main_v5_apply]
  congr 1
  refine idx2_eq _ _ _ rfl (Fin.ext ?_)
  show e.val % 1600000 = e.val
  exact Nat.mod_eq_of_lt e.isLt

theorem row1_entry (x1 : (⟨S2x1600000, .i32⟩ : BufTy).Contents (Elt Ideal)) (e : Fin 1600000) :
    val_main_v9 (F := Ideal) x1 (ix1 e) = x1 (ix2 (1 : Fin 2) e) := by
  rw [val_main_v9_apply, val_main_v8_apply]
  congr 1
  refine idx2_eq _ _ _ rfl (Fin.ext ?_)
  show e.val % 1600000 = e.val
  exact Nat.mod_eq_of_lt e.isLt

/-- The joined source words at an edge's place and at a loop's place. -/
theorem srcw_edge (x1 : (⟨S2x1600000, .i32⟩ : BufTy).Contents (Elt Ideal)) (e : Fin 1600000) (h : e.val < 1700000) :
    val_main_v7 (F := Ideal) x1 (ix1 ⟨e.val, h⟩) = x1 (ix2 (0 : Fin 2) e) := by
  unfold val_main_v7
  rw [Cert.LibConcatVec.concat_vec_apply (a := 1600000) (b := 100000) (by norm_num), dif_pos (show e.val < 1600000 from e.isLt)]
  exact row0_entry x1 e

theorem srcw_loop (x1 : (⟨S2x1600000, .i32⟩ : BufTy).Contents (Elt Ideal)) (l : Fin 100000) (h : 1600000 + l.val < 1700000) :
    val_main_v7 (F := Ideal) x1 (ix1 ⟨1600000 + l.val, h⟩) = BitVec.ofNat 32 l.val := by
  unfold val_main_v7
  rw [Cert.LibConcatVec.concat_vec_apply (a := 1600000) (b := 100000) (by norm_num),
    dif_neg (show ¬ (1600000 + l.val < 1600000) by omega), val_main_v4_apply]
  show BitVec.ofNat 32 (1600000 + l.val - 1600000) = BitVec.ofNat 32 l.val
  rw [Nat.add_sub_cancel_left]

/-- The joined target words at an edge's place and at a loop's place. -/
theorem tgtw_edge (x1 : (⟨S2x1600000, .i32⟩ : BufTy).Contents (Elt Ideal)) (e : Fin 1600000) (h : e.val < 1700000) :
    val_main_v10 (F := Ideal) x1 (ix1 ⟨e.val, h⟩) = x1 (ix2 (1 : Fin 2) e) := by
  unfold val_main_v10
  rw [Cert.LibConcatVec.concat_vec_apply (a := 1600000) (b := 100000) (by norm_num), dif_pos (show e.val < 1600000 from e.isLt)]
  exact row1_entry x1 e

theorem tgtw_loop (x1 : (⟨S2x1600000, .i32⟩ : BufTy).Contents (Elt Ideal)) (l : Fin 100000) (h : 1600000 + l.val < 1700000) :
    val_main_v10 (F := Ideal) x1 (ix1 ⟨1600000 + l.val, h⟩) = BitVec.ofNat 32 l.val := by
  unfold val_main_v10
  rw [Cert.LibConcatVec.concat_vec_apply (a := 1600000) (b := 100000) (by norm_num),
    dif_neg (show ¬ (1600000 + l.val < 1600000) by omega), val_main_v4_apply]
  show BitVec.ofNat 32 (1600000 + l.val - 1600000) = BitVec.ofNat 32 l.val
  rw [Nat.add_sub_cancel_left]

/-! ## The degree and dinv -/

/-- The degree of node n: the joined entries whose target word is n's number, counted from zero. -/
theorem deg_entry (x1 : (⟨S2x1600000, .i32⟩ : BufTy).Contents (Elt Ideal)) (n : Fin 100000) :
    val_main_v14 (F := Ideal) x1 (ix1 n) = Cert.Spec.degR (Cert.Edges.tgt x1) n := by
  unfold val_main_v14
  refine (Cert.LibIndexOps.scatterAdd_vec_apply (N := 100000) (M := 1700000)
    (scatter_S100000_S1700000x1_S1700000_n_0_0_1).wf (val_main_v12 (F := Ideal)) (val_main_v13 (F := Ideal) x1)
    (val_main_v11 (F := Ideal)) n).trans ?_
  have h12 : val_main_v12 (F := Ideal) (ix1 n) = 0 := by
    rw [val_main_v12_apply, val_main_cst_0_apply]
    exact Ideal.ofBits_zero_f32
  have h11 : ∀ e : Fin 1700000, val_main_v11 (F := Ideal) (ix1 e) = 1 := by
    intro e
    rw [val_main_v11_apply, val_main_cst_apply]
    exact Cert.Edges.one_word
  have h13 : ∀ e : Fin 1700000, val_main_v13 (F := Ideal) x1 (ix2 e (0 : Fin 1)) = val_main_v10 (F := Ideal) x1 (ix1 e) := by
    intro e
    rw [val_main_v13_apply, idx1_eq (idx_main_v13 (ix2 e (0 : Fin 1))) e rfl]
  simp only [h12, h11, h13]
  rw [Cert.Edges.sum_join (a := 1600000) (b := 100000) (by norm_num)]
  simp only [tgtw_edge, tgtw_loop, Cert.Edges.toInt_ofNat]
  rfl

/-- dinv of node n, with the guard. -/
theorem dinv_entry (x1 : (⟨S2x1600000, .i32⟩ : BufTy).Contents (Elt Ideal)) (n : Fin 100000) :
    val_main_v18 (F := Ideal) x1 (ix1 n) = Cert.Spec.dinvR (Cert.Edges.tgt x1) n := by
  rw [val_main_v18_apply, val_main_v16_apply, val_main_v17_apply, deg_entry, val_main_v15_apply, val_main_cst_1_apply,
    val_main_call0_v1_apply, val_main_call0_v0_apply, val_main_cst_2_apply, Ideal.cmpf_def, Ideal.hostUnary_rsqrt_def,
    Ideal.ofBits_def, Ideal.ofBits_zero_f32]
  rfl

/-! ## Reads at the joined entries: a negative position is wrapped, the result clamped -/

/-- The position list a read takes is the wrapped word (three copies of the same compare, add, select). -/
theorem wrap_src_vec (x1 : (⟨S2x1600000, .i32⟩ : BufTy).Contents (Elt Ideal)) (e : Fin 1700000) :
    val_main_v24 (F := Ideal) x1 (ix2 e (0 : Fin 1)) = Cert.Edges.wrap (val_main_v7 (F := Ideal) x1 (ix1 e)) := by
  rw [val_main_v24_apply, idx1_eq (idx_main_v24 (ix2 e (0 : Fin 1))) e rfl, val_main_v23_apply, val_main_v20_apply,
    val_main_v22_apply, val_main_v19_apply, val_main_c_apply, val_main_v21_apply, val_main_c_3_apply]
  rfl

theorem wrap_tgt_vec (x1 : (⟨S2x1600000, .i32⟩ : BufTy).Contents (Elt Ideal)) (e : Fin 1700000) :
    val_main_v31 (F := Ideal) x1 (ix2 e (0 : Fin 1)) = Cert.Edges.wrap (val_main_v10 (F := Ideal) x1 (ix1 e)) := by
  rw [val_main_v31_apply, idx1_eq (idx_main_v31 (ix2 e (0 : Fin 1))) e rfl, val_main_v30_apply, val_main_v27_apply,
    val_main_v29_apply, val_main_v26_apply, val_main_c_4_apply, val_main_v28_apply, val_main_c_5_apply]
  rfl

theorem wrap_src_rows (x1 : (⟨S2x1600000, .i32⟩ : BufTy).Contents (Elt Ideal)) (e : Fin 1700000) :
    val_main_v39 (F := Ideal) x1 (ix2 e (0 : Fin 1)) = Cert.Edges.wrap (val_main_v7 (F := Ideal) x1 (ix1 e)) := by
  rw [val_main_v39_apply, idx1_eq (idx_main_v39 (ix2 e (0 : Fin 1))) e rfl, val_main_v38_apply, val_main_v35_apply,
    val_main_v37_apply, val_main_v34_apply, val_main_c_6_apply, val_main_v36_apply, val_main_c_7_apply]
  rfl

/-- A read of a vector over the nodes at a joined entry lands on the node of the entry's word. -/
theorem gather_vec_node (x : (⟨S100000, .f32⟩ : BufTy).Contents (Elt Ideal))
    (idx : (⟨S1700000x1, .i32⟩ : BufTy).Contents (Elt Ideal)) (e : Fin 1700000) (w : BitVec 32)
    (h : idx (ix2 e (0 : Fin 1)) = Cert.Edges.wrap w) :
    Host.gather gather_S100000_S1700000x1_S1700000_n_0_n_n_0_1_1 x idx (ix1 e) = x (ix1 (Cert.Edges.node w)) := by
  refine (Cert.LibIndexOps.gather_vec_apply (N := 100000) (M := 1700000) (by norm_num)
    (gather_S100000_S1700000x1_S1700000_n_0_n_n_0_1_1).wf x idx e).trans ?_
  have hn : (⟨min (idx (ix2 e (0 : Fin 1))).toInt.toNat (100000 - 1), by omega⟩ : Fin 100000) = Cert.Edges.node w :=
    Fin.ext (by
      show min (idx (ix2 e (0 : Fin 1))).toInt.toNat (100000 - 1) = min (Cert.Edges.wrap w).toInt.toNat (100000 - 1)
      rw [h])
  exact congrArg (fun m => x (ix1 m)) hn

/-- A read of rows of a matrix over the nodes at a joined entry lands on the row of the node of the entry's word. -/
theorem gather_rows_node (x : (⟨S100000x128, .f32⟩ : BufTy).Contents (Elt Ideal))
    (idx : (⟨S1700000x1, .i32⟩ : BufTy).Contents (Elt Ideal)) (e : Fin 1700000) (q : Fin 128) (w : BitVec 32)
    (h : idx (ix2 e (0 : Fin 1)) = Cert.Edges.wrap w) :
    Host.gather gather_S100000x128_S1700000x1_S1700000x128_1_0_n_n_0_1_1128 x idx (ix2 e q)
      = x (ix2 (Cert.Edges.node w) q) := by
  refine (Cert.LibIndexOps.gather_rows_apply (N := 100000) (M := 1700000) (D := 128) (by norm_num)
    (gather_S100000x128_S1700000x1_S1700000x128_1_0_n_n_0_1_1128).wf x idx e q).trans ?_
  have hn : (⟨min (idx (ix2 e (0 : Fin 1))).toInt.toNat (100000 - 1), by omega⟩ : Fin 100000) = Cert.Edges.node w :=
    Fin.ext (by
      show min (idx (ix2 e (0 : Fin 1))).toInt.toNat (100000 - 1) = min (Cert.Edges.wrap w).toInt.toNat (100000 - 1)
      rw [h])
  exact congrArg (fun m => x (ix2 m q)) hn

/-- dinv read at the source and at the target position of a joined entry. -/
theorem dinv_src (x1 : (⟨S2x1600000, .i32⟩ : BufTy).Contents (Elt Ideal)) (e : Fin 1700000) :
    val_main_v25 (F := Ideal) x1 (ix1 e)
      = Cert.Spec.dinvR (Cert.Edges.tgt x1) (Cert.Edges.node (val_main_v7 (F := Ideal) x1 (ix1 e))) := by
  unfold val_main_v25
  rw [gather_vec_node _ _ e _ (wrap_src_vec x1 e), dinv_entry]

theorem dinv_tgt (x1 : (⟨S2x1600000, .i32⟩ : BufTy).Contents (Elt Ideal)) (e : Fin 1700000) :
    val_main_v32 (F := Ideal) x1 (ix1 e)
      = Cert.Spec.dinvR (Cert.Edges.tgt x1) (Cert.Edges.node (val_main_v10 (F := Ideal) x1 (ix1 e))) := by
  unfold val_main_v32
  rw [gather_vec_node _ _ e _ (wrap_tgt_vec x1 e), dinv_entry]

/-! ## The messages and their accumulation -/

/-- The message of a joined entry at column q: h at the source node, times dinv at the source and at the target. -/
theorem msg_entry (x0 : (⟨S100000x128, .f32⟩ : BufTy).Contents (Elt Ideal))
    (x1 : (⟨S2x1600000, .i32⟩ : BufTy).Contents (Elt Ideal))
    (x2 x3 : (⟨S128x128, .f32⟩ : BufTy).Contents (Elt Ideal)) (e : Fin 1700000) (q : Fin 128) :
    val_main_v43 (F := Ideal) x0 x1 x2 x3 (ix2 e q)
      = Cert.Spec.projR (Cert.Edges.feat x0) (Cert.Edges.mat x2) (Cert.Edges.mat x3)
          (Cert.Edges.node (val_main_v7 (F := Ideal) x1 (ix1 e))) q
        * (Cert.Spec.dinvR (Cert.Edges.tgt x1) (Cert.Edges.node (val_main_v7 (F := Ideal) x1 (ix1 e)))
          * Cert.Spec.dinvR (Cert.Edges.tgt x1) (Cert.Edges.node (val_main_v10 (F := Ideal) x1 (ix1 e)))) := by
  rw [val_main_v43_apply, Ideal.mulf_def]
  unfold val_main_v40
  rw [gather_rows_node _ _ e q _ (wrap_src_rows x1 e), proj_entry, val_main_v42_apply,
    idx2_eq (idx_main_v42 (ix2 e q)) e (0 : Fin 1) rfl rfl, val_main_v41_apply,
    idx1_eq (idx_main_v41 (ix2 e (0 : Fin 1))) e rfl, val_main_v33_apply, Ideal.mulf_def, dinv_src, dinv_tgt]

/-- The accumulated messages at (n, q): the edges whose target word is n's number, then the loop of n. -/
theorem acc_entry (x0 : (⟨S100000x128, .f32⟩ : BufTy).Contents (Elt Ideal))
    (x1 : (⟨S2x1600000, .i32⟩ : BufTy).Contents (Elt Ideal))
    (x2 x3 : (⟨S128x128, .f32⟩ : BufTy).Contents (Elt Ideal)) (n : Fin 100000) (q : Fin 128) :
    val_main_v46 (F := Ideal) x0 x1 x2 x3 (ix2 n q)
      = 0 + ((∑ e : Fin 1600000, if Cert.Edges.tgt x1 e = (n.val : Int)
            then Cert.Spec.projR (Cert.Edges.feat x0) (Cert.Edges.mat x2) (Cert.Edges.mat x3) (Cert.Edges.src x1 e) q
              * (Cert.Spec.dinvR (Cert.Edges.tgt x1) (Cert.Edges.src x1 e)
                * Cert.Spec.dinvR (Cert.Edges.tgt x1) (Cert.Edges.tgtNode x1 e))
            else 0)
          + ∑ l : Fin 100000, if (l.val : Int) = (n.val : Int)
            then Cert.Spec.projR (Cert.Edges.feat x0) (Cert.Edges.mat x2) (Cert.Edges.mat x3) l q
              * (Cert.Spec.dinvR (Cert.Edges.tgt x1) l * Cert.Spec.dinvR (Cert.Edges.tgt x1) l)
            else 0) := by
  unfold val_main_v46
  refine (Cert.LibIndexOps.scatterAdd_rows_apply (N := 100000) (M := 1700000) (D := 128)
    (scatter_S100000x128_S1700000x1_S1700000x128_1_0_0_1).wf (val_main_v44 (F := Ideal)) (val_main_v45 (F := Ideal) x1)
    (val_main_v43 (F := Ideal) x0 x1 x2 x3) n q).trans ?_
  have h44 : val_main_v44 (F := Ideal) (ix2 n q) = 0 := by
    rw [val_main_v44_apply, val_main_cst_8_apply]
    exact Ideal.ofBits_zero_f32
  have h45 : ∀ e : Fin 1700000, val_main_v45 (F := Ideal) x1 (ix2 e (0 : Fin 1)) = val_main_v10 (F := Ideal) x1 (ix1 e) := by
    intro e
    rw [val_main_v45_apply, idx1_eq (idx_main_v45 (ix2 e (0 : Fin 1))) e rfl]
  simp only [h44, h45, msg_entry]
  rw [Cert.Edges.sum_join (a := 1600000) (b := 100000) (by norm_num)]
  simp only [srcw_edge, srcw_loop, tgtw_edge, tgtw_loop, Cert.Edges.toInt_ofNat, Cert.Edges.node_ofNat]
  rfl

/-! ## The result -/

/-- The reference program's result at (n, q) is the second arrangement of the layer on the arguments' data. -/
theorem ref_entry (x0 : (⟨S100000x128, .f32⟩ : BufTy).Contents (Elt Ideal))
    (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (n : Fin 100000) (q : Fin 128) :
    Cert.ReferenceIdeal.ReadP.val_main_v49 (F := Ideal) x0 x1 x2 x3 x4 (ix2 n q)
      = Cert.Spec.outR (Cert.Edges.feat x0) (Cert.Edges.mat x2) (Cert.Edges.mat x3) (Cert.Edges.bias x4)
          (Cert.Edges.tgt x1) (Cert.Edges.src x1) (Cert.Edges.tgtNode x1) n q := by
  rw [val_main_v49_apply, Ideal.addf_def, acc_entry, val_main_v48_apply, val_main_v47_apply,
    idx1_eq (idx_main_v47 (idx_main_v48 (ix2 n q))) q rfl]
  rfl

end Cert.RefValue

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  From "every float input is finite" to "every entry of the features and of the two weight matrices is a real number".
  The precondition is the conjunction of four all-reductions, one per float argument, of "the absolute value of the
  entry is less than +infinity"; an extended real with that property is a real number.
-/
import proofs.«173724_j69320772158259_2_alg».proof.Pre_finite_inputs
import proofs.«173724_j69320772158259_2_alg».proof.Proof.Gen.Pre_finite_inputs
import proofs.«173724_j69320772158259_2_alg».proof.Proof.LibRealEntry
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- Under the precondition the features and both weight matrices hold real numbers. -/
theorem real_entries (x0 : FVec Ideal S100000x128 .f32) (x1 : IVec S2x1600000 32) (x2 x3 : FVec Ideal S128x128 .f32)
    (x4 : FVec Ideal S128 .f32) (h : Cert.Pre_finite_inputs.fn (F := Ideal) x0 x1 x2 x3 x4 = fun _ => 1#1) :
    (∀ i, ∃ r : ℝ, x0 i = r) ∧ (∀ i, ∃ r : ℝ, x2 i = r) ∧ (∀ i, ∃ r : ℝ, x3 i = r) := by
  have h0 := congrFun h ix0
  dsimp only [fn, fn_part1] at h0
  obtain ⟨h123, -⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact LibRealEntry.real_of_abs_lt_inf _ (Host.reduce_andi_all _ _ _ _ _ h1 i)
  · exact LibRealEntry.real_of_abs_lt_inf _ (Host.reduce_andi_all _ _ _ _ _ h2 i)
  · exact LibRealEntry.real_of_abs_lt_inf _ (Host.reduce_andi_all _ _ _ _ _ h3 i)

end Cert.Finite

end
-- ==== Proof.lean ====
/-
  One graph-convolution layer with symmetric normalisation: a Pallas kernel program against its jnp reference.

  Both programs compute, for node n and output column q,
      out (n, q) = Σ over the edges e into n, the self loop included, of h (source of e, q) · dinv (source) · dinv (n)  +  b q,
  with h = (x · Wlᵀ) · Wgᵀ and dinv = (1 + number of edges into the node)^(-1/2).
  The reference joins the edge list with one loop per node, counts degrees over the joined list, guards dinv by
  "degree > 0", scales every gathered row by dinv (source) · dinv (target) and accumulates. The kernel program multiplies
  the two weight matrices first, counts degrees over the edges and adds one, lets its one region compute
  g = (x · (Wlᵀ · Wgᵀ)) · dinv block of rows by block of rows, and finishes with dinv · (accumulate g over the edges + g) + b.
  At the ideal values the two agree entry by entry when the features and the weights are real numbers (the
  precondition): the degree is a real number at least one, so the guard is dead and dinv is a nonnegative real, which
  distributes over sums; the two orders of the matrix products agree for real entries. Edge positions are arbitrary
  32-bit words in both programs: an accumulation drops a position that is not a node's number, a read wraps and clamps
  it, and a position that is a node's number reads that node, which is all the comparison needs.

  The three frames: the two kernel programs' are the generated frame certificates; the reference's is its run with the
  result dropped. The idealization rewrote nothing, so that claim is trivial.
-/
import proofs.«173724_j69320772158259_2_alg».proof.Defs
import proofs.«173724_j69320772158259_2_alg».proof.Proof.Gen.Kernel
import proofs.«173724_j69320772158259_2_alg».proof.Proof.Gen.Kernel.Skeleton
import proofs.«173724_j69320772158259_2_alg».proof.Proof.Gen.Kernel.Launch
import proofs.«173724_j69320772158259_2_alg».proof.Proof.Gen.Kernel.Points
import proofs.«173724_j69320772158259_2_alg».proof.Proof.Gen.Kernel.Frame
import proofs.«173724_j69320772158259_2_alg».proof.Proof.Gen.KernelIdeal
import proofs.«173724_j69320772158259_2_alg».proof.Proof.Gen.KernelIdeal.Skeleton
import proofs.«173724_j69320772158259_2_alg».proof.Proof.Gen.KernelIdeal.Launch
import proofs.«173724_j69320772158259_2_alg».proof.Proof.Gen.KernelIdeal.Points
import proofs.«173724_j69320772158259_2_alg».proof.Proof.Gen.KernelIdeal.Frame
import proofs.«173724_j69320772158259_2_alg».proof.Proof.Gen.ReferenceIdeal
import proofs.«173724_j69320772158259_2_alg».proof.Proof.Gen.Pre_finite_inputs
import proofs.«173724_j69320772158259_2_alg».proof.Proof.KValue
import proofs.«173724_j69320772158259_2_alg».proof.Proof.RefValue
import proofs.«173724_j69320772158259_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The kernel program's run with its result named: after the run the result buffer holds what the operations after
    the region compute from what the region left, and the arguments are unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v31)
          = Pipeline.afterTail₀ Cert.KernelIdeal.cfgs (Cert.KernelIdeal.Gen.dats m) 0 (Cert.KernelIdeal.Gen.V0 m)
              [Cert.KernelIdeal.Gen.hostOps1] c Cert.KernelIdeal.main_v31
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  open Cert.KernelIdeal Cert.KernelIdeal.Gen in
  exact (θ_run defs _ _).mono (fun _ h c =>
    ⟨(h c).2 main_v31 (Pipeline.mem_restRefs_of main_v31 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

/-- The two idealized programs end with equal results. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v31, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, (hagree c).1, (hagree c).2.1, (hagree c).2.2.1, (hagree c).2.2.2.1,
    (hagree c).2.2.2.2]
  obtain ⟨hx, hWl, hWg⟩ := Cert.Finite.real_entries _ _ _ _ _ (hpre c)
  refine funext fun (i : Cert.ReferenceIdeal.S100000x128.Idx) => ?_
  obtain ⟨n, q, rfl⟩ : ∃ (n : Fin 100000) (q : Fin 128), i = ix2 n q := ⟨i 0, i 1, eq_ix2 i⟩
  refine (Cert.RefValue.ref_entry _ _ _ _ _ n q).trans ?_
  refine Eq.trans ?_ (Cert.KernelIdeal.Value.kernel_entry m c n q).symm
  exact (Cert.Spec.outK_eq_outR _ _ _ _ _ _ _ (fun n k => hx (ix2 n k)) (fun j k => hWl (ix2 j k)) (fun q j => hWg (ix2 q j))
    (fun e n h => Cert.Edges.tgtNode_of_tgt _ e n h) n q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
